-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S8192x128 .f32
  ∧ IdealRules.sign_bit.Statement Cert.KernelIdeal.S8192x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S131072x128 : Shape := ⟨2, ![131072, 128]⟩
abbrev S16x128 : Shape := ⟨2, ![16, 128]⟩
abbrev S8192x128 : Shape := ⟨2, ![8192, 128]⟩
abbrev S8x128 : Shape := ⟨2, ![8, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | .local _ .vmem, ⟨6, _⟩ => ⟨S1x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_13 : BitVec 32 := 0#32
  let v44 : BitVec 1 := Scalar.cmpi .ne v43 c0_i32_13
  v44

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216_S131072x128 : S16777216.ShapeCasts S131072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  natLt_1_32 : 1 < 32
  reduces_S8192x128_S128 : S8192x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S16777216, .i1⟩
  | .hbm, ⟨11, _⟩ => ⟨S16777216, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  reducesTo_S16777216_S_d0 : S16777216.ReducesTo [0] S_
  h_S_ : 0 < S_.numel

variable [Facts₀]

class Facts : Prop extends Facts₀ where

variable [Facts]
-- ==== Proof.BodyPieces.lean ====
/-
  What one run of the loss body leaves behind, case by case.

  The body keeps a 1 × 128 running total in scratch.  On the first step of a half it resets the total to
  zero and then adds the block's column sums (two stores, the second reading the first back); on every
  later step it adds the block's column sums to the total the step before left; on the last step of a
  half it also stores the lane sum of the new total, broadcast over the 8 × 128 output block.  Each
  lemma below reads the stored pieces back as the store's value over the loaded blocks.
-/
import proofs.«152938_j14508399526012_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]

/-- The zero offset of a store that covers its whole buffer. -/
theorem hz : (![0, 0] : Fin 2 → Nat) = fun _ => 0 := funext fun a => by fin_cases a <;> rfl

/-- A middle step: the total becomes the accumulating store's value over the two blocks and the old total. -/
theorem sout_B (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : ¬cond0_1 i)
    (x0 x1 : Vec F S8192x128 .f32) (xs0 : Vec F S1x128 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S8192x128) hz, View.ld_unit_zero (S := S1x128) hz]

/-- A half's first step: the same value over the freshly reset total. -/
theorem sout_A (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S1x128 .f32) (h5 : a5.IsWhole) (hc0 : cond0_0 i) (hc1 : ¬cond0_1 i)
    (x0 x1 : Vec F S8192x128 .f32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) hz, View.readCov_unit_zero (S := S1x128) _ hz]
  simp only [View.readAt_eq_ld, h2.read_unread, h3.read_unread, View.ld_unit_zero (S := S8192x128) hz]

/-- A half's last step: the total is updated as in a middle step, -/
theorem sout_C (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : cond0_1 i)
    (x0 x1 : Vec F S8192x128 .f32) (xs0 : Vec F S1x128 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x128) hz]
  simp only [View.readAt_eq_ld, h2.read_unread, h3.read_unread, h5.read_unread, View.ld_unit_zero (S := S8192x128) hz, View.ld_unit_zero (S := S1x128) hz]

/-- and the output block holds the output store's value of that new total. -/
theorem out_C (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : cond0_1 i)
    (x0 x1 : Vec F S8192x128 .f32) (xs0 : Vec F S1x128 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S8x128) hz, View.readCov_unit_zero (S := S1x128) _ hz]
  simp only [View.readAt_eq_ld, h2.read_unread, h3.read_unread, h5.read_unread, View.ld_unit_zero (S := S8192x128) hz, View.ld_unit_zero (S := S1x128) hz]

end Cert.KernelIdeal.Loss

end
-- ==== Proof.LossSpec.lean ====
/-
  The loss both programs compute, one element at a time, and the two laws that join them.

  For predictions p and targets t (n = 2^24 of each) the loss is
      mean ((p - t)^2) + mean (sign p ≠ sign t).
  One element contributes `elt p t = (p - t)^2 + mism p t`, where `mism` is 1 where the signs differ and 0
  where they agree.  One side adds all the contributions up and multiplies the total by 2^-24; the other
  adds the squares and the indicators separately, divides each total by 2^24 and adds the quotients.
  On the extended reals the two agree because multiplication by a nonnegative real distributes over
  every sum (no finiteness is needed), and division by 2^24 is multiplication by 2^-24.
-/
import Idealize.ShloMosaic.PureOps.Ideal.Laws
import Idealize.ShloMosaic.Lib.ValueIdx

noncomputable section

open scoped BigOperators

namespace Cert.LossSpec

open Idealize.ShloMosaic Idealize.ShloMosaic.ValueIdx

/-- 1 where the signs of the two numbers differ, 0 where they agree. -/
def mism (p t : EReal) : EReal := if Ideal.sign p = Ideal.sign t then 0 else 1

/-- The squared difference. -/
def sqd (p t : EReal) : EReal := (p - t) * (p - t)

/-- One element's contribution: the squared difference plus the sign-mismatch indicator. -/
def elt (p t : EReal) : EReal := sqd p t + mism p t

/-! ## The three literal words -/

/-- The word 0x3F800000 denotes 1. -/
theorem ofBits_one : Ideal.ofBits .f32 0x3F800000#32 = 1 := IdealRules.sign_bit.ideal_onePat .f32

/-- The word 0x4B800000 denotes 2^24. -/
theorem ofBits_two24 : Ideal.ofBits .f32 0x4B800000#32 = ((16777216 : ℝ) : EReal) := by
  simp [Ideal.ofBits, Ideal.ieee, -EReal.coe_mul]; norm_num

/-- The word 0x33800000 denotes 2^-24. -/
theorem ofBits_inv_two24 : Ideal.ofBits .f32 0x33800000#32 = ((1 / 16777216 : ℝ) : EReal) := by
  simp [Ideal.ofBits, Ideal.ieee, -EReal.coe_mul]; norm_num

/-! ## The indicator in its two spellings -/

/-- An ordered "not equal" widened to 32 bits, read as a signed integer and scaled by the word for 1. -/
theorem ind_one (a b : EReal) :
    Ideal.ofBits .f32 0x3F800000#32 * ((((Ideal.cmp .one a b).setWidth 32).toInt : ℝ) : EReal) = if a = b then 0 else 1 := by
  rw [ofBits_one, one_mul]
  by_cases h : a = b <;> simp [Ideal.cmp, h]

/-- An unordered "not equal" read as an unsigned integer. -/
theorem ind_une (a b : EReal) :
    (((Ideal.cmp .une a b).toNat : ℝ) : EReal) = if a = b then 0 else 1 := by
  by_cases h : a = b <;> simp [Ideal.cmp, h]

/-! ## The mean, in its two arrangements -/

/-- The total of all contributions scaled by 2^-24 is the mean of the squares plus the mean of the
    indicators: division by 2^24 is multiplication by 2^-24, which distributes over a sum of extended
    reals because 2^-24 is a nonnegative real. -/
theorem mean_law (s u : EReal) :
    (s + u) * Ideal.ofBits .f32 0x33800000#32
      = Ideal.div (Ideal.ofBits .f32 0x00000000#32 + s) (Ideal.ofBits .f32 0x4B800000#32)
        + Ideal.ofBits .f32 0x3F800000#32 * Ideal.div (Ideal.ofBits .f32 0x00000000#32 + u) (Ideal.ofBits .f32 0x4B800000#32) := by
  rw [Ideal.ofBits_zero_f32, zero_add, zero_add, ofBits_two24, Ideal.div_coe (by norm_num), Ideal.div_coe (by norm_num),
    ofBits_one, one_mul, ofBits_inv_two24]
  exact EReal.right_distrib_of_nonneg_of_ne_top (by exact_mod_cast (by norm_num : (0 : ℝ) ≤ 1 / 16777216))
    (EReal.coe_ne_top _) s u

/-- THE LOSS of two arrays of extended reals over any finite index set, in the first arrangement: the total of
    all contributions times the word for 2^-24. -/
def lossOf {ι : Type*} [Fintype ι] (a0 a1 : ι → EReal) : EReal :=
  (∑ n, elt (a0 n) (a1 n)) * Ideal.ofBits .f32 0x33800000#32

/-- The same loss in the second arrangement: the sum of the squares from the zero word, over the word for 2^24,
    plus the word for 1 times the sum of the indicators from the zero word, over the word for 2^24. -/
theorem lossOf_eq_means {ι : Type*} [Fintype ι] (a0 a1 : ι → EReal) :
    lossOf a0 a1
      = Ideal.div (Ideal.ofBits .f32 0x00000000#32 + ∑ n, sqd (a0 n) (a1 n)) (Ideal.ofBits .f32 0x4B800000#32)
        + Ideal.ofBits .f32 0x3F800000#32
          * Ideal.div (Ideal.ofBits .f32 0x00000000#32 + ∑ n, mism (a0 n) (a1 n)) (Ideal.ofBits .f32 0x4B800000#32) := by
  unfold lossOf elt
  rw [Finset.sum_add_distrib]
  exact mean_law _ _

end Cert.LossSpec

end
-- ==== Proof.BodyRead.lean ====
/-
  The loss body's three stored values read at an entry, on the extended reals.

  The accumulating store writes, at lane l, the old total plus the sum down the block's 8192 rows of
  (p - t)^2 + 1 · [sign p ≠ sign t]; the reset store writes zero; the output store writes the sum of the
  128 lane totals at every entry of its 8 × 128 block.  The sign is spelt "1 with the entry's sign bit
  where |x| > 0, else x", which is the sign function on every extended real.
-/
import proofs.«152938_j14508399526012_2_alg».proof.Proof.Gen.KernelIdeal.Skeleton
import proofs.«152938_j14508399526012_2_alg».proof.Proof.LossSpec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.Loss

open Cert.KernelIdeal Cert.KernelIdeal.Gen Cert.LossSpec

/-- The sum down the 8192 rows of a block, read at lane l. -/
theorem colSum_apply (src : FVec Ideal S8192x128 .f32) (h : S8192x128.Reduces [0] S128) (hφ : FKind.Formats .f32)
    (hacc : (0x00000000#32 : BitVec 32) = 0x00000000#32) (l : Fin 128) :
    multiReduction .add [0] S128 src 0x00000000#32 h hφ hacc (ix1 l) = ∑ r : Fin 8192, src (ix2 r l) := by
  refine (Ideal.multiReduction_add_single src 0x00000000#32 h hφ hacc (ix1 l)).trans ?_
  refine Finset.sum_congr rfl fun r _ => congrArg src (funext fun a => Fin.ext ?_)
  match a with
  | ⟨0, _⟩ => rfl
  | ⟨1, _⟩ => rfl

/-- The sum along the 128 lanes of the one row. -/
theorem laneSum_apply (src : FVec Ideal S1x128 .f32) (h : S1x128.Reduces [1] S1) (hφ : FKind.Formats .f32)
    (hacc : (0x00000000#32 : BitVec 32) = 0x00000000#32) (j : S1.Idx) :
    multiReduction .add [1] S1 src 0x00000000#32 h hφ hacc j = ∑ l : Fin 128, src (ix2 0 l) := by
  refine (Ideal.multiReduction_add_total src 0x00000000#32 h (fun b => by match b with | ⟨0, _⟩ => rfl) hφ hacc j).trans ?_
  rw [sum_idx2, Fin.sum_univ_one]

/-- The sign of each entry in the body's spelling: 1 with the entry's sign where the entry is not zero, the
    entry itself where it is. -/
def ksign (x : FVec Ideal S8192x128 .f32) : FVec Ideal S8192x128 .f32 :=
  select (cmpf .ogt (absf x) (broadcast S8192x128 (Scalar.ofBits .f32 0x00000000#32)))
    (select (cmpf .olt x (constant S8192x128 .f32 0x00000000#32)) (constant S8192x128 .f32 0xBF800000#32)
      (constant S8192x128 .f32 0x3F800000#32)) x

theorem ksign_apply (x : FVec Ideal S8192x128 .f32) (i : S8192x128.Idx) : ksign x i = Ideal.sign (x i) :=
  Ideal.jnp_sign_eq_sign_f32 (x i)

/-- A block's per-element value in the body's spelling. -/
def comb (y0 y1 : FVec Ideal S8192x128 .f32) : FVec Ideal S8192x128 .f32 :=
  addf (mulf (subf y0 y1) (subf y0 y1))
    (mulf (broadcast S8192x128 (Scalar.ofBits .f32 0x3F800000#32))
      (sitofp .f32 (extui 32 (cmpf .one (ksign y0) (ksign y1)) natLt_1_32)))

/-- It is the element's contribution to the loss. -/
theorem comb_apply (y0 y1 : FVec Ideal S8192x128 .f32) (i : S8192x128.Idx) : comb y0 y1 i = elt (y0 i) (y1 i) := by
  show (y0 i - y1 i) * (y0 i - y1 i)
      + Ideal.ofBits .f32 0x3F800000#32 * ((((Ideal.cmp .one (ksign y0 i) (ksign y1 i)).setWidth 32).toInt : ℝ) : EReal) = _
  rw [ksign_apply, ksign_apply, ind_one]
  rfl

/-- One step of the running total: the total so far plus the block's column sums. -/
def accStep (y0 y1 : FVec Ideal S8192x128 .f32) (a : FVec Ideal S1x128 .f32) : FVec Ideal S1x128 .f32 :=
  shapeCast S1x128 (addf a (shapeCast S1x128 (multiReduction .add [0] S128 (comb y0 y1) 0x00000000#32 reduces_S8192x128_S128 (.inl rfl) rfl)
    shapeCasts_S128_S1x128)) shapeCasts_S1x128_S1x128

theorem pay3_eq (x0 x1 : Vec Ideal S8192x128 .f32) (a : Vec Ideal S1x128 .f32) :
    k0_pay3 (F := Ideal) x0 x1 a
      = accStep (shapeCast S8192x128 x0 shapeCasts_S8192x128_S8192x128) (shapeCast S8192x128 x1 shapeCasts_S8192x128_S8192x128) a := rfl

theorem accStep_apply (y0 y1 : FVec Ideal S8192x128 .f32) (a : FVec Ideal S1x128 .f32) (l : Fin 128) :
    accStep y0 y1 a (ix2 0 l) = a (ix2 0 l) + ∑ r : Fin 8192, elt (y0 (ix2 r l)) (y1 (ix2 r l)) := by
  unfold accStep
  rw [shapeCast_self]
  show a (ix2 0 l) + _ = _
  rw [shapeCast_a_1a_apply, colSum_apply]
  exact congrArg (a (ix2 0 l) + ·) (Finset.sum_congr rfl fun r _ => comb_apply y0 y1 (ix2 r l))

/-- The accumulating store's value at lane l: the total so far plus the column sum of the block's contributions. -/
theorem pay3_apply (x0 x1 : Vec Ideal S8192x128 .f32) (a : Vec Ideal S1x128 .f32) (l : Fin 128) :
    k0_pay3 (F := Ideal) x0 x1 a (ix2 0 l) = a (ix2 0 l) + ∑ r : Fin 8192, elt (x0 (ix2 r l)) (x1 (ix2 r l)) := by
  rw [pay3_eq, shapeCast_self, shapeCast_self]
  exact accStep_apply x0 x1 a l

/-- The reset store's value: zero. -/
theorem pay2_apply (i : S1x128.Idx) : k0_pay2 (F := Ideal) i = 0 := by
  unfold k0_pay2
  rw [shapeCast_self]
  exact Ideal.ofBits_zero_f32

/-- The output store's value: the sum of the 128 lane totals, at every entry of the 8 × 128 block. -/
theorem pay1_apply (a : Vec Ideal S1x128 .f32) (i : S8x128.Idx) :
    k0_pay1 (F := Ideal) a i = ∑ l : Fin 128, a (ix2 0 l) := by
  unfold k0_pay1
  refine (broadcastTo_apply _ _ i (ix2 (0 : Fin 1) (0 : Fin 1)) (fun ax => by match ax with | ⟨0, _⟩ => rfl | ⟨1, _⟩ => rfl)).trans ?_
  rw [shapeCast_self]
  refine (shapeCast_a_1a_apply _ _ 0 0).trans ?_
  exact laneSum_apply a _ _ _ _

end Cert.KernelIdeal.Loss

end
-- ==== Proof.LossSum.lean ====
/-
  Sums over the 131072 × 128 elements, taken in the order of a tiled sweep.

  The rows are swept in 16 blocks of 8192; blocks 0…7 belong to one half, blocks 8…15 to the other.
  Within a half a per-lane running total starts at zero on the half's first block and takes up one
  block's column sums at a time; after the half's last block the 128 lane totals are added up.
  Here: the running total after j steps is the plain sum of the blocks swept so far (`acc_eq`), and the two
  halves' totals together are the sum over every row and lane (`halves_eq_total`).  Only commutativity
  and associativity of addition are used, so all of it holds in any commutative monoid.
-/
import Mathlib.Algebra.BigOperators.Fin
import Mathlib.Algebra.BigOperators.Group.Finset.Sigma

noncomputable section

open scoped BigOperators

namespace Cert.LossSum

variable {M : Type*} [AddCommMonoid M]

/-- Row `k * 8192 + r`: row `r` of block `k`. -/
def blockRow (k : ℕ) (hk : k < 16) (r : Fin 8192) : Fin 131072 :=
  ⟨k * 8192 + r.val, by have := r.isLt; omega⟩

/-- A row is a block and a row within the block. -/
def blockEquiv : Fin 16 × Fin 8192 ≃ Fin 131072 where
  toFun p := blockRow p.1.val p.1.isLt p.2
  invFun R := (⟨R.val / 8192, by have := R.isLt; omega⟩, ⟨R.val % 8192, Nat.mod_lt _ (by omega)⟩)
  left_inv p := by
    have h1 := p.1.isLt
    have h2 := p.2.isLt
    refine Prod.ext (Fin.ext ?_) (Fin.ext ?_)
    · show (p.1.val * 8192 + p.2.val) / 8192 = p.1.val
      omega
    · show (p.1.val * 8192 + p.2.val) % 8192 = p.2.val
      omega
  right_inv R := by
    refine Fin.ext ?_
    show R.val / 8192 * 8192 + R.val % 8192 = R.val
    omega

/-- A sum over all rows, block by block. -/
theorem sum_blocks (f : Fin 131072 → M) :
    ∑ k : Fin 16, ∑ r : Fin 8192, f (blockRow k.val k.isLt r) = ∑ R : Fin 131072, f R := by
  rw [← Fintype.sum_prod_type']
  exact Fintype.sum_equiv blockEquiv _ _ fun _ => rfl

/-- The running total of a half: zero plus the first block on the half's first step, the previous total
    plus the next block afterwards. `z` is the value the total is reset to. -/
def acc (z : M) (b : ℕ → M) : ℕ → M
  | 0 => z + b 0
  | n + 1 => if (n + 1) % 8 = 0 then z + b (n + 1) else acc z b n + b (n + 1)

/-- After `j` further steps from the start `s` of a half, the running total is the reset value plus the
    sum of the blocks `s … s + j`. -/
theorem acc_eq (z : M) (b : ℕ → M) (s : ℕ) (hs : s % 8 = 0) :
    ∀ j : ℕ, j < 8 → acc z b (s + j) = z + ∑ k ∈ Finset.range (j + 1), b (s + k)
  | 0, _ => by
    rw [Finset.sum_range_one, Nat.add_zero]
    cases s with
    | zero => rfl
    | succ s => exact if_pos hs
  | j + 1, hj => by
    have h : (s + j + 1) % 8 ≠ 0 := by omega
    show acc z b (s + j + 1) = _
    rw [acc, if_neg h, acc_eq z b s hs j (by omega), Finset.sum_range_succ (fun k => b (s + k)) (j + 1), add_assoc]
    rfl

/-- The two halves' totals, each the sum over lanes of the sum of its eight blocks, add up to the sum over
    every row and lane, when block `k`'s entry at lane `l` is the column sum of the block's rows. -/
theorem halves_eq_total {L : Type*} [Fintype L] (E : Fin 131072 → L → M) (bs : ℕ → L → M)
    (hbs : ∀ (k : ℕ) (hk : k < 16) (l : L), bs k l = ∑ r : Fin 8192, E (blockRow k hk r) l) :
    (∑ l, ∑ k ∈ Finset.range 8, bs (0 + k) l) + (∑ l, ∑ k ∈ Finset.range 8, bs (8 + k) l) = ∑ R, ∑ l, E R l := by
  rw [← Finset.sum_add_distrib]
  have h : ∀ l, (∑ k ∈ Finset.range 8, bs (0 + k) l) + (∑ k ∈ Finset.range 8, bs (8 + k) l)
      = ∑ k : Fin 16, ∑ r : Fin 8192, E (blockRow k.val k.isLt r) l := by
    intro l
    simp only [Nat.zero_add]
    rw [← Finset.sum_range_add (fun k => bs k l) 8 8, ← Fin.sum_univ_eq_sum_range (fun k => bs k l) (8 + 8)]
    exact Finset.sum_congr rfl fun k _ => hbs k.val k.isLt l
  rw [Finset.sum_congr rfl fun l _ => h l, Finset.sum_comm]
  rw [Finset.sum_congr rfl fun k _ => Finset.sum_comm]
  exact sum_blocks fun R => ∑ l, E R l

end Cert.LossSum

end
-- ==== Proof.Sweep.lean ====
/-
  The sweep over the sixteen grid points, read as values on the extended reals.

  Point n handles block n of the rows.  By induction on n the scratch holds, at each lane, the running
  total of the half the point is in: reset to zero plus the block's column sum on a half's first point,
  the previous total plus the block's column sum afterwards.  On a half's last point the output block
  is filled with the sum of the 128 lane totals and written back: rows 0…7 of the 16 × 128 result get
  the first half's total, rows 8…15 the second's, and the two blocks cover the array.
-/
import proofs.«152938_j14508399526012_2_alg».proof.Proof.BodyPieces
import proofs.«152938_j14508399526012_2_alg».proof.Proof.BodyRead
import proofs.«152938_j14508399526012_2_alg».proof.Proof.LossSum

noncomputable section

open scoped BigOperators
open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.LossSpec

variable (m : (ℓ : Loc nD τ sig) → Buf (Elt Ideal) ℓ) (ρ : Dev nD → PrngReg)

/-- Block k's column sum at lane l: the sum down its 8192 rows of the elements' contributions (zero past the
    last block). -/
def bsum (c : Dev nD) (l : Fin 128) (k : ℕ) : EReal :=
  if h : k < cfg0.N then
    ∑ r : Fin 8192, elt ((iblk m c 0 ⟨k, h⟩ : Vec Ideal S8192x128 .f32) (ix2 r l)) ((iblk m c 1 ⟨k, h⟩ : Vec Ideal S8192x128 .f32) (ix2 r l))
  else 0

theorem bsum_pos (c : Dev nD) (l : Fin 128) (k : ℕ) (h : k < cfg0.N) :
    bsum m c l k = ∑ r : Fin 8192, elt ((iblk m c 0 ⟨k, h⟩ : Vec Ideal S8192x128 .f32) (ix2 r l)) ((iblk m c 1 ⟨k, h⟩ : Vec Ideal S8192x128 .f32) (ix2 r l)) :=
  dif_pos h

/-- THE RUNNING TOTAL.  After the body at position n the scratch holds, at lane l, the running total of the
    half the position is in. -/
theorem scratch_eq (c : Dev nD) (l : Fin 128) : ∀ (n : ℕ) (hn : n < cfg0.N),
    (outsAt0 m c n hn).2 (ix2 0 l) = LossSum.acc 0 (bsum m c l) n
  | 0, hn => by
    rw [outsAt0_A m c ⟨0, hn⟩ rfl (by show ¬(0 : ℕ) % 8 = 7; decide)]
    dsimp only
    rw [sout_A, pay3_apply, pay2_apply, ← bsum_pos m c l 0 hn]
    rfl
  | n + 1, hn => by
    have hN : cfg0.N = 16 := N_0
    by_cases h0 : (n + 1) % 8 = 0
    · have h1 : ¬(n + 1) % 8 = 7 := by omega
      rw [outsAt0_A m c ⟨n + 1, hn⟩ h0 h1]
      dsimp only
      rw [sout_A, pay3_apply, pay2_apply, ← bsum_pos m c l (n + 1) hn, LossSum.acc, if_pos h0]
    · by_cases h1 : (n + 1) % 8 = 7
      · rw [outsAt0_C m c ⟨n + 1, hn⟩ h0 h1]
        dsimp only
        rw [sout_C, pay3_apply, ← bsum_pos m c l (n + 1) hn, LossSum.acc, if_neg h0]
        show (outsAt0 m c n _).2 (ix2 0 l) + _ = _
        rw [scratch_eq c l n]
      · rw [outsAt0_B m c ⟨n + 1, hn⟩ h0 h1]
        dsimp only
        rw [sout_B, pay3_apply, ← bsum_pos m c l (n + 1) hn, LossSum.acc, if_neg h0]
        show (outsAt0 m c n _).2 (ix2 0 l) + _ = _
        rw [scratch_eq c l n]

/-- On the last step of a half the output block holds, at every entry, the sum of the 128 lane totals. -/
theorem out_eq (c : Dev nD) (t : Fin cfg0.N) (h7 : t.val % 8 = 7) (j : S8x128.Idx) :
    (outsAt0 m c t.val t.isLt).1 j = ∑ l : Fin 128, LossSum.acc 0 (bsum m c l) t.val := by
  have h0 : ¬t.val % 8 = 0 := by omega
  have e1 : (outsAt0 m c t.val t.isLt).1 = k0_pay1 ((outsAt0 m c t.val t.isLt).2) := by
    rw [outsAt0_C m c t h0 h7]; dsimp only; rw [out_C, sout_C]
  rw [e1, pay1_apply]
  exact Finset.sum_congr rfl fun l _ => scratch_eq m c l t.val t.isLt

/-- The total of the half whose first block is s: the lane totals after the half's eighth block, added up. -/
def half (c : Dev nD) (s : ℕ) : EReal := ∑ l : Fin 128, LossSum.acc 0 (bsum m c l) (s + 7)

/-- The 16 × 128 result array: rows 0…7 hold the first half's total, rows 8…15 the second's. -/
def outArr (c : Dev nD) : Buf (Elt Ideal) ((c : Thread nD τ).loc main_v2) := fun i => half m c ((i 0).val / 8 * 8)

/-- The output window's block index at a point: the half the point is in. -/
theorem idx2_facts : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What a half's last point writes back is its block of the result array. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  show (cfg0.win 2).cut (grid0.coords t) ((dats m 0 c).after 2 t) = _
  rw [after0_2]
  funext j
  show (outsAt0 m c t.val t.isLt).1 j = outArr m c (((cfg0.win 2).blk t).view.emb j)
  rw [out_eq m c t h7 j]
  have hj : (j 0).val < 8 := (j 0).isLt
  show _ = half m c ((win0_2.index t (0 : Fin 2) * 8 + 1 * (j 0).val) / 8 * 8)
  rw [(idx2_facts t).1]
  unfold half
  have e : (t.val / 8 * 8 + 1 * (j 0).val) / 8 * 8 + 7 = t.val := by omega
  rw [e]

/-- An entry of the array is in a point's block when each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The two written-back blocks cover the array: row ρ is in the block of the last point of half ρ / 8. -/
theorem cover (i : S16x128.Idx) : ∃ t : Fin cfg0.N, (cfg0.win 2).flush t = true ∧ i ∈ ((cfg0.win 2).blk t).view.set := by
  have hN : cfg0.N = 16 := N_0
  have hi0 : (i 0).val < 16 := (i 0).isLt
  have hi1 : (i 1).val < 128 := (i 1).isLt
  have ht : (i 0).val / 8 * 8 + 7 < cfg0.N := by rw [hN]; omega
  refine ⟨⟨(i 0).val / 8 * 8 + 7, ht⟩, (flush0_2 _).mpr (by show ((i 0).val / 8 * 8 + 7) % 8 = 7; omega), ?_⟩
  rw [mem_blk]
  obtain ⟨e0, e1⟩ := idx2_facts ⟨(i 0).val / 8 * 8 + 7, ht⟩
  intro a
  match a with
  | ⟨0, _⟩ =>
    show win0_2.index ⟨(i 0).val / 8 * 8 + 7, ht⟩ (0 : Fin 2) * 8 ≤ (i 0).val ∧ (i 0).val < win0_2.index ⟨(i 0).val / 8 * 8 + 7, ht⟩ (0 : Fin 2) * 8 + 8
    rw [e0]
    show ((i 0).val / 8 * 8 + 7) / 8 * 8 ≤ (i 0).val ∧ (i 0).val < ((i 0).val / 8 * 8 + 7) / 8 * 8 + 8
    omega
  | ⟨1, _⟩ =>
    show win0_2.index ⟨(i 0).val / 8 * 8 + 7, ht⟩ (1 : Fin 2) * 128 ≤ (i 1).val ∧ (i 1).val < win0_2.index ⟨(i 0).val / 8 * 8 + 7, ht⟩ (1 : Fin 2) * 128 + 128
    rw [e1]
    omega

/-- So the result array ends holding the two halves' totals. -/
theorem final_out (c : Dev nD) : (dats m 0 c).arrAt 2 cfg0.N = outArr m c :=
  (dats m 0 c).arrAt_eq_of_cover 2 (outArr m c) (flushed_eq m c) cover

end Cert.KernelIdeal.Loss

end
-- ==== Proof.KernelLoss.lean ====
/-
  The kernel's result as one function of its two argument arrays, on the extended reals.

  Before the region both arrays are reshaped to 131072 × 128; block t of a window is rows
  t · 8192 … t · 8192 + 8191.  So a block's column sum is a sum over those rows, the two halves' totals
  add up to the sum over every row and lane, and, a reshape being a permutation of the entries, to the
  sum over the flat arrays.  After the region the program adds entries (0, 0) and (8, 0) of the result
  array — the two halves' totals — and multiplies by the word for 2^-24.
-/
import proofs.«152938_j14508399526012_2_alg».proof.Proof.Sweep
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.LossSpec

variable (m : (ℓ : Loc nD τ sig) → Buf (Elt Ideal) ℓ) (ρ : Dev nD → PrngReg)

/-- The region finds the predictions reshaped to 131072 × 128, -/
theorem V_v0 (c : Dev nD) : (V m c main_v0 : S131072x128.Idx → EReal)
    = shapeCast S131072x128 (m ((c : Thread nD τ).loc main_arg0)) shapeCasts_S16777216_S131072x128 := by
  show StableHlo.after hostOps0 (fun b => m (c, b)) (Proc.devRef .tc main_v0) = _
  after_results
  rfl

/-- and the targets likewise. -/
theorem V_v1 (c : Dev nD) : (V m c main_v1 : S131072x128.Idx → EReal)
    = shapeCast S131072x128 (m ((c : Thread nD τ).loc main_arg1)) shapeCasts_S16777216_S131072x128 := by
  show StableHlo.after hostOps0 (fun b => m (c, b)) (Proc.devRef .tc main_v1) = _
  after_results
  rfl

/-- The two input windows' block index at a point: the point's own number. -/
theorem idx01_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row r, lane l of the predictions' block at point t is row t · 8192 + r of the array. -/
theorem iblk0_apply (c : Dev nD) (t : Fin cfg0.N) (ht : t.val < 16) (r : Fin 8192) (l : Fin 128) :
    (iblk m c 0 t : Vec Ideal S8192x128 .f32) (ix2 r l) = V m c main_v0 (ix2 (LossSum.blockRow t.val ht r) l) := by
  obtain ⟨e0, e1, -, -⟩ := idx01_facts t
  unfold iblk
  rw [View.read_apply]
  show V m c main_v0 _ = V m c main_v0 _
  refine congrArg (V m c main_v0) (funext fun a => Fin.ext ?_)
  match a with
  | ⟨0, _⟩ => show win0_0.index t (0 : Fin 2) * 8192 + 1 * r.val = t.val * 8192 + r.val; rw [e0]; omega
  | ⟨1, _⟩ => show win0_0.index t (1 : Fin 2) * 128 + 1 * l.val = l.val; rw [e1]; omega

theorem iblk1_apply (c : Dev nD) (t : Fin cfg0.N) (ht : t.val < 16) (r : Fin 8192) (l : Fin 128) :
    (iblk m c 1 t : Vec Ideal S8192x128 .f32) (ix2 r l) = V m c main_v1 (ix2 (LossSum.blockRow t.val ht r) l) := by
  obtain ⟨-, -, e0, e1⟩ := idx01_facts t
  unfold iblk
  rw [View.read_apply]
  show V m c main_v1 _ = V m c main_v1 _
  refine congrArg (V m c main_v1) (funext fun a => Fin.ext ?_)
  match a with
  | ⟨0, _⟩ => show win0_1.index t (0 : Fin 2) * 8192 + 1 * r.val = t.val * 8192 + r.val; rw [e0]; omega
  | ⟨1, _⟩ => show win0_1.index t (1 : Fin 2) * 128 + 1 * l.val = l.val; rw [e1]; omega

/-- One element's contribution at row R, lane l of the reshaped arrays. -/
def E (c : Dev nD) (R : Fin 131072) (l : Fin 128) : EReal := elt (V m c main_v0 (ix2 R l)) (V m c main_v1 (ix2 R l))

/-- A block's column sum, over the arrays. -/
theorem bsum_eq (c : Dev nD) (k : ℕ) (hk : k < 16) (l : Fin 128) :
    bsum m c l k = ∑ r : Fin 8192, E m c (LossSum.blockRow k hk r) l := by
  have hN : cfg0.N = 16 := N_0
  have hk' : k < cfg0.N := by rw [hN]; exact hk
  rw [bsum_pos m c l k hk']
  exact Finset.sum_congr rfl fun r _ => by
    rw [iblk0_apply m c ⟨k, hk'⟩ hk r l, iblk1_apply m c ⟨k, hk'⟩ hk r l]; rfl

/-- A half's total: the sum over lanes of the sum of its eight blocks' column sums. -/
theorem half_eq (c : Dev nD) (s : ℕ) (hs : s % 8 = 0) :
    half m c s = ∑ l : Fin 128, ∑ k ∈ Finset.range 8, bsum m c l (s + k) := by
  unfold half
  exact Finset.sum_congr rfl fun l _ => by rw [LossSum.acc_eq 0 (bsum m c l) s hs 7 (by omega), zero_add]

/-- The two halves' totals add up to the sum over every row and lane. -/
theorem halves_total (c : Dev nD) : half m c 0 + half m c 8 = ∑ R : Fin 131072, ∑ l : Fin 128, E m c R l := by
  rw [half_eq m c 0 rfl, half_eq m c 8 rfl]
  exact LossSum.halves_eq_total (E m c) (fun k l => bsum m c l k) (fun k hk l => bsum_eq m c k hk l)

/-- The sum over rows and lanes of the reshaped arrays is the sum over the flat arrays: a reshape permutes
    the entries. -/
theorem total_flat (c : Dev nD) : ∑ R : Fin 131072, ∑ l : Fin 128, E m c R l
    = ∑ n : S16777216.Idx, elt (m ((c : Thread nD τ).loc main_arg0) n) (m ((c : Thread nD τ).loc main_arg1) n) := by
  unfold E
  rw [← sum_idx2 (fun i : S131072x128.Idx => elt (V m c main_v0 i) (V m c main_v1 i)), V_v0, V_v1]
  exact Equiv.sum_comp (Shape.reshapeEquiv shapeCasts_S16777216_S131072x128)
    (fun n => elt (m ((c : Thread nD τ).loc main_arg0) n) (m ((c : Thread nD τ).loc main_arg1) n))

/-- An entry of the result array's column 0, cut out as a 1 × 1 slice and reshaped to a scalar: the total of the
    half its row is in. -/
theorem entry_read (c : Dev nD) (off : Fin 2 → ℕ) (h : S16x128.Slices off S1x1) (h' : S1x1.ShapeCasts S_) (i : S_.Idx) :
    shapeCast S_ (extractStridedSlice S1x1 off (outArr m c) h) h' i = half m c (off 0 / 8 * 8) := by
  unfold shapeCast
  generalize Shape.reshapeEquiv h' i = j
  have hj : (j 0).val = 0 := Nat.lt_one_iff.mp (j 0).isLt
  unfold extractStridedSlice
  show half m c ((off 0 + (j 0).val) / 8 * 8) = _
  rw [hj, Nat.add_zero]

/-- The lines after the region: entry (0, 0) plus entry (8, 0) of the result array, times the word for 2^-24. -/
theorem tail_eq (c : Dev nD) :
    Pipeline.afterTail₀ cfgs (dats m) 0 (V0 m) [hostOps1] c main_v8
      = fun _ => (half m c 0 + half m c 8) * Ideal.ofBits .f32 0x33800000#32 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v2)
      = outArr m c :=
    (Pipeline.withArrays_arr spec0 launch0.win.arr_inj c _ _ 2).trans (final_out m c)
  rw [e]
  funext i
  show ((shapeCast S_ (extractStridedSlice S1x1 ![0, 0] (outArr m c) slices_S16x128_S1x1_0_0) shapeCasts_S1x1_S_ i : EReal)
      + (shapeCast S_ (extractStridedSlice S1x1 ![8, 0] (outArr m c) slices_S16x128_S1x1_8_0) shapeCasts_S1x1_S_ i : EReal))
      * Ideal.ofBits .f32 0x33800000#32 = _
  rw [entry_read, entry_read]
  rfl

/-- THE KERNEL'S RESULT: the loss of the two argument arrays, in the first arrangement. -/
theorem result_eq (c : Dev nD) :
    Pipeline.afterTail₀ cfgs (dats m) 0 (V0 m) [hostOps1] c main_v8
      = fun _ => lossOf (m ((c : Thread nD τ).loc main_arg0)) (m ((c : Thread nD τ).loc main_arg1)) := by
  rw [tail_eq, halves_total, total_flat]
  rfl

/-- The run, read: the result at the loss of the arguments, the arguments unchanged. -/
theorem run : θ_run defs (onTc (τ := τ) (main (F := Ideal))) ⟨m, fun _ => 0, ρ⟩ fun r => ∀ c : Dev nD,
      r.2.mem ((c : Thread nD τ).loc main_v8)
          = (fun _ => lossOf (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Loss

end
-- ==== Proof.RefLoss.lean ====
/-
  The reference, read on the extended reals.

  It subtracts, squares and sums all 2^24 elements from the zero word, divides by the word for 2^24,
  does the same with the indicators "sign p ≠ sign t" (an unordered comparison of the two sign
  functions, converted to 0 or 1), multiplies that mean by the word for 1, and adds the two.
-/
import proofs.«152938_j14508399526012_2_alg».proof.Proof.Gen.ReferenceIdeal.Read
import proofs.«152938_j14508399526012_2_alg».proof.Proof.LossSpec

noncomputable section

open scoped BigOperators
open Idealize.ShloMosaic Idealize.ShloMosaic.TcCoe Idealize.SL.Sem

namespace Cert.ReferenceIdeal.Loss

open Cert.ReferenceIdeal Cert.ReferenceIdeal.Read Cert.LossSpec

/-- THE REFERENCE'S RESULT: the loss of its two argument arrays, in the second arrangement — the mean of the
    squared differences plus one times the mean of the sign-mismatch indicators. -/
theorem ref_eq (x0 x1 : (⟨S16777216, .f32⟩ : BufTy).Contents (Elt Ideal)) :
    val_main_v11 (F := Ideal) x0 x1 = fun _ => lossOf x0 x1 := by
  funext i
  have e1 : ∀ j, val_main_v1 (F := Ideal) x0 x1 j = sqd (x0 j) (x1 j) := fun j => rfl
  have e7 : ∀ j, val_main_v7 (F := Ideal) x0 x1 j = mism (x0 j) (x1 j) := fun j => by
    show (((Ideal.cmp .une (Ideal.sign (x0 j)) (Ideal.sign (x1 j))).toNat : ℝ) : EReal) = _
    exact ind_une _ _
  rw [lossOf_eq_means, val_main_v11_apply, val_main_v3_apply, val_main_v10_apply, val_main_v9_apply, val_main_v2_apply,
    val_main_v8_apply, Finset.sum_congr rfl fun j _ => e1 j, Finset.sum_congr rfl fun j _ => e7 j]
  rfl

end Cert.ReferenceIdeal.Loss

end
-- ==== Proof.lean ====
/-
  Mean squared error plus the rate of sign mismatches, mean((p - t)^2) + mean(sign p ≠ sign t), over 2^24
  elements: a tiled kernel against the plain formula, equal as extended reals.

  The kernel views both arrays as 131072 × 128, sweeps the rows in sixteen blocks of 8192 on a 2 × 8
  grid, keeps a per-lane running total of (p - t)^2 + 1 · [sign p ≠ sign t] in scratch for each half of the
  rows, writes each half's lane-summed total into its 8 rows of a 16 × 128 result, and outside the
  region adds the two totals and multiplies by 2^-24.  The reference sums the squares and the
  indicators separately over the flat arrays, divides each by 2^24 and adds the quotients.

  * Kernel side (Proof/BodyPieces, BodyRead, Sweep, KernelLoss): the scratch after each grid point is the
    running total of its half, by induction on the point; the result array holds the two totals; the
    program's result is `lossOf` of the arguments — the sum of all contributions times 2^-24.
  * Reference side (Proof/RefLoss): its result is the same `lossOf`, by `lossOf_eq_means`: multiplication by
    the nonnegative real 2^-24 distributes over any sum of extended reals, and dividing by 2^24 is
    multiplying by 2^-24 (Proof/LossSpec).  No finiteness of the inputs is used.
  * The regrouping of the sum by halves, blocks, rows and lanes (Proof/LossSum) uses only that addition is
    commutative and associative.
  * The kernel's sign is "1 with the sign bit of x where |x| > 0, else x"; the idealization reads the sign bit as
    x < 0, and the two ledger entries are that rule's statement at the block's shape.
-/
import proofs.«152938_j14508399526012_2_alg».proof.Defs
import proofs.«152938_j14508399526012_2_alg».proof.Proof.Gen.Kernel
import proofs.«152938_j14508399526012_2_alg».proof.Proof.Gen.Kernel.Frame
import proofs.«152938_j14508399526012_2_alg».proof.Proof.Gen.KernelIdeal
import proofs.«152938_j14508399526012_2_alg».proof.Proof.Gen.KernelIdeal.Frame
import proofs.«152938_j14508399526012_2_alg».proof.Proof.Gen.ReferenceIdeal
import proofs.«152938_j14508399526012_2_alg».proof.Proof.Gen.Pre_finite_inputs
import proofs.«152938_j14508399526012_2_alg».proof.Proof.Gen.ReferenceIdeal.Run
import proofs.«152938_j14508399526012_2_alg».proof.Proof.Gen.ReferenceIdeal.Read
import proofs.«152938_j14508399526012_2_alg».proof.Proof.KernelLoss
import proofs.«152938_j14508399526012_2_alg».proof.Proof.RefLoss
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: 1.0 carrying the sign bit of an entry is -1 below zero and 1 otherwise. -/
theorem preserves : Cert.preserves_Kernel_KernelIdeal :=
  ⟨IdealRules.sign_bit.statement Cert.KernelIdeal.S8192x128 .f32, IdealRules.sign_bit.statement Cert.KernelIdeal.S8192x128 .f32⟩

/-- Both programs end with the loss of the (agreeing) argument arrays. -/
theorem algebraic : Cert.algebraic_KernelIdeal_ReferenceIdeal := by
  intro m ρ m' ρ' _ hagree
  refine ⟨fun c => fun _ => Cert.LossSpec.lossOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Loss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.Loss.ref_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
